-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x2 .f32) (main_arg12 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 69
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S1x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S_, .f32⟩
  | .hbm, ⟨50, _⟩ => ⟨S512x128, .f32⟩
  | .hbm, ⟨51, _⟩ => ⟨S50000x1, .i32⟩
  | .hbm, ⟨52, _⟩ => ⟨S512x128, .f32⟩
  | .hbm, ⟨53, _⟩ => ⟨S_, .f32⟩
  | .hbm, ⟨54, _⟩ => ⟨S50000, .f32⟩
  | .hbm, ⟨55, _⟩ => ⟨S_, .f32⟩
  | .hbm, ⟨56, _⟩ => ⟨S512, .f32⟩
  | .hbm, ⟨57, _⟩ => ⟨S50000x1, .i32⟩
  | .hbm, ⟨58, _⟩ => ⟨S512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S512x1, .f32⟩
  | .hbm, ⟨63, _⟩ => ⟨S512x128, .f32⟩
  | .hbm, ⟨64, _⟩ => ⟨S512x128, .f32⟩
  | .hbm, ⟨65, _⟩ => ⟨S512x2, .f32⟩
  | .hbm, ⟨66, _⟩ => ⟨S1x2, .f32⟩
  | .hbm, ⟨67, _⟩ => ⟨S512x2, .f32⟩
  | .hbm, ⟨68, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S512x128, .f32⟩
  | .hbm, ⟨75, _⟩ => ⟨S50000x1, .i32⟩
  | .hbm, ⟨76, _⟩ => ⟨S512x128, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S512, .f32⟩
  | .hbm, ⟨81, _⟩ => ⟨S50000x1, .i32⟩
  | .hbm, ⟨82, _⟩ => ⟨S512, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S512x1, .f32⟩
  | .hbm, ⟨87, _⟩ => ⟨S512x128, .f32⟩
  | .hbm, ⟨88, _⟩ => ⟨S512x128, .f32⟩
  | .hbm, ⟨89, _⟩ => ⟨S512x2, .f32⟩
  | .hbm, ⟨90, _⟩ => ⟨S1x2, .f32⟩
  | .hbm, ⟨91, _⟩ => ⟨S512x2, .f32⟩
  | .hbm, ⟨92, _⟩ => ⟨S512x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x2_S512x2_1_0_0_1_n_n_wf : DotDims.WF S512x128 S128x2 S512x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«142959_j84482006712598_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«142959_j84482006712598_1_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.LibGinUpdate.lean ====
/-
  One graph-isomorphism layer's node update, entry by entry.

  For node features `X : n × K`, the sum of each node's neighbours' features `A : n × K`, weights `Wa : K × H`, `Wb : H × N` and
  bias rows `Ba : 1 × H`, `Bb : 1 × N`, the update is two rectified dense layers of `X + A`:
      update X A Wa Ba Wb Bb = relu (relu ((X + A) · Wa + Ba) · Wb + Bb),
  an `n × N` array (`relu v = max v 0`). Over the extended reals three facts about it are all that a grid of row blocks against one
  whole-array computation needs:
    • row `r` of the update depends on row `r` of `X` and of `A` only (`update_entry`) — each dense layer's entry `(r, q)` is a sum
      over row `r` of its left operand, and `X + A` is taken entry by entry —, so the update of a block of rows is that block of
      rows of the update;
    • a kernel body's spelling of it on a block (operands rounded to bf16 — the identity here —, multiplied into the zero
      accumulator, a bias row broadcast over the rows, the maximum with a broadcast zero, twice) IS `update` of the blocks
      (`body_update`);
    • the host's spelling (two `dot_general`s, each bias vector broadcast to a row and then over the rows, the maximum with a
      broadcast zero, twice) IS `update` at the bias vectors cast to rows (`host_update`).
  No step uses distributivity or cancellation, so nothing here asks the entries to be finite.
-/
import proofs.«142959_j84482006712598_1_alg».proof.Proof.LibDenseLayer

noncomputable section

open scoped BigOperators

namespace Cert.Gin

open Idealize.ShloMosaic Idealize.ShloMosaic.ValueIdx Cert.Lib.DenseLayer

variable {n M K H N : Nat}

/-- The node update: two rectified dense layers of the features plus the neighbours' sum. -/
def update (X A : FVec Ideal ⟨2, ![n, K]⟩ .f32) (Wa : FVec Ideal ⟨2, ![K, H]⟩ .f32) (Ba : FVec Ideal ⟨2, ![1, H]⟩ .f32)
    (Wb : FVec Ideal ⟨2, ![H, N]⟩ .f32) (Bb : FVec Ideal ⟨2, ![1, N]⟩ .f32) : FVec Ideal ⟨2, ![n, N]⟩ .f32 :=
  affineRelu (affineRelu (addf X A) Wa Ba) Wb Bb

/-- Row `p` of the update of `x`, `a` is row `r` of the update of `X`, `A` when row `p` of `x` is row `r` of `X` and row `p` of `a`
    is row `r` of `A` (the weights and bias rows the same): the inner layer's row `p` reads row `p` of `x + a` only, and the outer
    layer's row `p` reads row `p` of the inner layer only. -/
theorem update_entry (X A : FVec Ideal ⟨2, ![n, K]⟩ .f32) (x a : FVec Ideal ⟨2, ![M, K]⟩ .f32)
    (Wa wa : FVec Ideal ⟨2, ![K, H]⟩ .f32) (Ba ba : FVec Ideal ⟨2, ![1, H]⟩ .f32)
    (Wb wb : FVec Ideal ⟨2, ![H, N]⟩ .f32) (Bb bb : FVec Ideal ⟨2, ![1, N]⟩ .f32) (p : Fin M) (r : Fin n) (q : Fin N)
    (hx : ∀ k : Fin K, x (ix2 p k) = X (ix2 r k)) (ha : ∀ k : Fin K, a (ix2 p k) = A (ix2 r k))
    (hWa : wa = Wa) (hBa : ba = Ba) (hWb : wb = Wb) (hBb : bb = Bb) :
    update x a wa ba wb bb (ix2 p q) = update X A Wa Ba Wb Bb (ix2 r q) := by
  subst hWa hBa hWb hBb
  refine affineRelu_entry (affineRelu (addf X A) wa ba) (affineRelu (addf x a) wa ba) wb wb bb bb p r q (fun k => ?_)
    (fun _ => rfl) rfl
  refine affineRelu_entry (addf X A) (addf x a) wa wa ba ba p r k (fun k' => ?_) (fun _ => rfl) rfl
  rw [addf_apply, addf_apply, hx k', ha k']

/-- A kernel body's block: both products with operands rounded to bf16 into the zero accumulator, each bias row broadcast over
    the rows and added, each sum's maximum with a broadcast zero. -/
theorem body_update (D1 : DotDims ⟨2, ![M, K]⟩ ⟨2, ![K, H]⟩ ⟨2, ![M, H]⟩) (hD1 : D1 = DotDims.plain M K H)
    (D2 : DotDims ⟨2, ![M, H]⟩ ⟨2, ![H, N]⟩ ⟨2, ![M, N]⟩) (hD2 : D2 = DotDims.plain M H N)
    (h0a : (⟨2, ![M, K]⟩ : Shape).ShapeCasts ⟨2, ![M, K]⟩) (h0b : (⟨2, ![M, H]⟩ : Shape).ShapeCasts ⟨2, ![M, H]⟩)
    (h2a : (⟨2, ![1, H]⟩ : Shape).ShapeCasts ⟨2, ![1, H]⟩) (h2b : (⟨2, ![1, N]⟩ : Shape).ShapeCasts ⟨2, ![1, N]⟩)
    (hba : (⟨2, ![1, H]⟩ : Shape).Broadcasts ⟨2, ![M, H]⟩) (hbb : (⟨2, ![1, N]⟩ : Shape).Broadcasts ⟨2, ![M, N]⟩)
    (hbits : FTy.bits .bf16 < FTy.bits .f32)
    (x a : FVec Ideal ⟨2, ![M, K]⟩ .f32) (wa : FVec Ideal ⟨2, ![K, H]⟩ .f32) (ba : FVec Ideal ⟨2, ![1, H]⟩ .f32)
    (wb : FVec Ideal ⟨2, ![H, N]⟩ .f32) (bb : FVec Ideal ⟨2, ![1, N]⟩ .f32) :
    maximumf (addf (matmul D2 none
          (truncf .bf16 (maximumf (addf (matmul D1 none (truncf .bf16 (addf x a) hbits) (truncf .bf16 wa hbits)
                (constant ⟨2, ![M, H]⟩ .f32 0x00000000#32))
              (broadcastTo ⟨2, ![M, H]⟩ (shapeCast ⟨2, ![1, H]⟩ ba h2a) hba))
            (broadcast ⟨2, ![M, H]⟩ (Scalar.ofBits (F := Ideal) .f32 0x00000000#32))) hbits)
          (truncf .bf16 wb hbits) (constant ⟨2, ![M, N]⟩ .f32 0x00000000#32))
        (broadcastTo ⟨2, ![M, N]⟩ (shapeCast ⟨2, ![1, N]⟩ bb h2b) hbb))
      (broadcast ⟨2, ![M, N]⟩ (Scalar.ofBits (F := Ideal) .f32 0x00000000#32)) = update x a wa ba wb bb := by
  have e1 := block_affineRelu_eq D1 hD1 h0a h2a hba hbits (addf x a) wa ba
  rw [shapeCast_self (addf x a) h0a] at e1
  have e2 := block_affineRelu_eq D2 hD2 h0b h2b hbb hbits (affineRelu (addf x a) wa ba) wb bb
  rw [shapeCast_self (affineRelu (addf x a) wa ba) h0b] at e2
  rw [e1]
  exact e2

/-- The host's: two `dot_general`s, each bias vector broadcast to a row and then over the rows and added, each sum's maximum with a
    broadcast zero. The bias rows of the update are then the bias vectors cast to `1 × H` and `1 × N`. -/
theorem host_update (D1 : DotDims ⟨2, ![n, K]⟩ ⟨2, ![K, H]⟩ ⟨2, ![n, H]⟩) (hD1 : D1 = DotDims.plain n K H)
    (D2 : DotDims ⟨2, ![n, H]⟩ ⟨2, ![H, N]⟩ ⟨2, ![n, N]⟩) (hD2 : D2 = DotDims.plain n H N)
    (hb1a : (⟨1, ![H]⟩ : Shape).BroadcastsInDim ⟨2, ![1, H]⟩ ![1]) (hb2a : (⟨2, ![1, H]⟩ : Shape).BroadcastsInDim ⟨2, ![n, H]⟩ ![0, 1])
    (hb0a : (⟨0, ![]⟩ : Shape).BroadcastsInDim ⟨2, ![n, H]⟩ ![]) (hsca : (⟨1, ![H]⟩ : Shape).ShapeCasts ⟨2, ![1, H]⟩)
    (hb1b : (⟨1, ![N]⟩ : Shape).BroadcastsInDim ⟨2, ![1, N]⟩ ![1]) (hb2b : (⟨2, ![1, N]⟩ : Shape).BroadcastsInDim ⟨2, ![n, N]⟩ ![0, 1])
    (hb0b : (⟨0, ![]⟩ : Shape).BroadcastsInDim ⟨2, ![n, N]⟩ ![]) (hscb : (⟨1, ![N]⟩ : Shape).ShapeCasts ⟨2, ![1, N]⟩)
    (X A : FVec Ideal ⟨2, ![n, K]⟩ .f32) (Wa : FVec Ideal ⟨2, ![K, H]⟩ .f32) (ba : FVec Ideal ⟨1, ![H]⟩ .f32)
    (Wb : FVec Ideal ⟨2, ![H, N]⟩ .f32) (bb : FVec Ideal ⟨1, ![N]⟩ .f32) :
    maximumf (addf (Host.dotGeneral D2 none
          (maximumf (addf (Host.dotGeneral D1 none (addf X A) Wa)
              (broadcastInDim ⟨2, ![n, H]⟩ ![0, 1] hb2a (broadcastInDim ⟨2, ![1, H]⟩ ![1] hb1a ba)))
            (broadcastInDim ⟨2, ![n, H]⟩ ![] hb0a (constant (F := Ideal) ⟨0, ![]⟩ .f32 0x00000000#32))) Wb)
        (broadcastInDim ⟨2, ![n, N]⟩ ![0, 1] hb2b (broadcastInDim ⟨2, ![1, N]⟩ ![1] hb1b bb)))
      (broadcastInDim ⟨2, ![n, N]⟩ ![] hb0b (constant (F := Ideal) ⟨0, ![]⟩ .f32 0x00000000#32))
      = update X A Wa (shapeCast ⟨2, ![1, H]⟩ ba hsca) Wb (shapeCast ⟨2, ![1, N]⟩ bb hscb) := by
  rw [host_affineRelu_eq D1 hD1 hb1a hb2a hb0a hsca (addf X A) Wa ba]
  exact host_affineRelu_eq D2 hD2 hb1b hb2b hb0b hscb _ Wb bb

end Cert.Gin

end
-- ==== Proof.KernelBlock.lean ====
/-
  What each kernel body stores, as the node update of the blocks it loaded.

  Both pallas_calls run the same body on a block of 5000 rows: it loads the block of node features, the block of neighbour sums,
  the two 128 × 128 weight matrices and the two 1 × 128 bias rows, and stores
      relu (relu ((x + a) · Wa + Ba) · Wb + Bb)
  of them — with the operands of each product rounded to bf16, which over the extended reals changes nothing, and with casts of
  a block to its own shape, which are the identity. So the stored value is `Cert.Gin.update` of the six loaded blocks.
-/
import proofs.«142959_j84482006712598_1_alg».proof.Proof.LibGinUpdate
import proofs.«142959_j84482006712598_1_alg».proof.Proof.Gen.KernelIdeal.Skeleton

noncomputable section

namespace Cert.KernelIdeal.BodyValue

open Idealize.ShloMosaic Cert.KernelIdeal Cert.KernelIdeal.Gen Cert.Gin

/-- The body's matrix products contract axis 1 of the left operand with axis 0 of the right one. -/
theorem dot_plain : dot_S5000x128_S128x128_S5000x128_1_0_0_1_n_n = DotDims.plain 5000 128 128 := rfl

/-- The first call's stored value is the update of its loaded blocks. -/
theorem pay0_eq (v0 v1 : Vec Ideal S5000x128 .f32) (v5 : Vec Ideal S128x128 .f32) (v8 : Vec Ideal S1x128 .f32)
    (v15 : Vec Ideal S128x128 .f32) (v18 : Vec Ideal S1x128 .f32) :
    k0_pay1 (F := Ideal) v0 v1 v5 v8 v15 v18 = update v0 v1 v5 v8 v15 v18 := by
  unfold k0_pay1
  rw [shapeCast_self v1 shapeCasts_S5000x128_S5000x128]
  exact body_update _ dot_plain _ dot_plain shapeCasts_S5000x128_S5000x128 shapeCasts_S5000x128_S5000x128
    shapeCasts_S1x128_S1x128 shapeCasts_S1x128_S1x128 broadcasts_S1x128_S5000x128 broadcasts_S1x128_S5000x128
    bitsLt_bf16_f32 v0 v1 v5 v8 v15 v18

/-- The second call's stored value is the update of its loaded blocks. -/
theorem pay1_eq (v0 v2 : Vec Ideal S5000x128 .f32) (v6 : Vec Ideal S128x128 .f32) (v9 : Vec Ideal S1x128 .f32)
    (v16 : Vec Ideal S128x128 .f32) (v19 : Vec Ideal S1x128 .f32) :
    k1_pay1 (F := Ideal) v0 v2 v6 v9 v16 v19 = update v0 v2 v6 v9 v16 v19 := by
  unfold k1_pay1
  rw [shapeCast_self v0 shapeCasts_S5000x128_S5000x128, shapeCast_self v2 shapeCasts_S5000x128_S5000x128]
  exact body_update _ dot_plain _ dot_plain shapeCasts_S5000x128_S5000x128 shapeCasts_S5000x128_S5000x128
    shapeCasts_S1x128_S1x128 shapeCasts_S1x128_S1x128 broadcasts_S1x128_S5000x128 broadcasts_S1x128_S5000x128
    bitsLt_bf16_f32 v0 v2 v6 v9 v16 v19

end Cert.KernelIdeal.BodyValue

end
-- ==== Proof.KernelRegion.lean ====
/-
  What each pallas_call leaves in its output array: the node update of the whole arrays it reads.

  A call runs its body at 10 grid points. Point `t` stages rows `5000·t … 5000·t + 4999` of the node features and of the neighbour
  sums, the whole weight matrices and bias rows, and writes back the body's result to the same rows of the output. The body's
  result is the node update of those blocks, and a row of the update depends on the same row of the features and of the sums
  only; so what point `t` writes back is rows `5000·t …` of the update of the WHOLE arrays, and since the ten blocks of rows fill
  the 50000 rows the output array ends holding that update.
-/
import proofs.«142959_j84482006712598_1_alg».proof.Proof.KernelBlock
import proofs.«142959_j84482006712598_1_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx Cert.Gin
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first call -/

/-- The update of the arrays the first call reads, as the call finds them. -/
def rows0 (c : Dev nD) : S50000x128.Idx → Elt Ideal .f32 :=
  update (n := 50000) (K := 128) (H := 128) (N := 128) (V c main_arg0) (V c main_v13) (V c main_arg3) (V c main_v14)
    (V c main_arg5) (V c main_v15)

/-- The printed index maps over the grid: the row windows sit at block `(t, 0)`, the weights and bias rows at block `(0, 0)`. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is its block of rows of the update of the whole arrays: the body's result is the update of the
    point's blocks, row `p` of the point's row blocks is row `5000·t + p` of the arrays, and the weight and bias blocks are the
    whole weights and bias rows. -/
theorem flushed0_eq (c : Dev nD) (t : Fin cfg0.N) :
    (dat0 V c).flushed 6 t = ((cfg0.win 6).blk t).view.read (Elt Ideal) (rows0 V c) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51, e60, e61⟩ := index_facts0 t
  have ht : t.val < 10 := lt_of_lt_of_eq t.isLt N_0
  refine funext fun (j : S5000x128.Idx) => ?_
  obtain ⟨p, q, rfl⟩ : ∃ (p : Fin 5000) (q : Fin 128), j = ix2 p q := ⟨j 0, j 1, eq_ix2 j⟩
  have hp := p.isLt
  have hq := q.isLt
  have hrow : t.val * 5000 + p.val < 50000 := by omega
  show k0_pay1 (F := Ideal) (iblk0 V c 0 t) (iblk0 V c 1 t) (iblk0 V c 2 t) (iblk0 V c 3 t) (iblk0 V c 4 t) (iblk0 V c 5 t) (ix2 p q)
    = rows0 V c (((cfg0.win 6).blk t).view.emb (ix2 p q))
  have hemb : ((cfg0.win 6).blk t).view.emb (ix2 p q)
      = (ix2 (n0 := 50000) (n1 := 128) ⟨t.val * 5000 + p.val, hrow⟩ q : S50000x128.Idx) := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  refine ((congrFun (BodyValue.pay0_eq (iblk0 V c 0 t) (iblk0 V c 1 t) (iblk0 V c 2 t) (iblk0 V c 3 t) (iblk0 V c 4 t)
    (iblk0 V c 5 t)) (ix2 p q)).trans ?_).trans (congrArg (rows0 V c) hemb.symm)
  unfold rows0
  refine update_entry (n := 50000) (M := 5000) (K := 128) (H := 128) (N := 128) (V c main_arg0) (V c main_v13)
    (iblk0 V c 0 t) (iblk0 V c 1 t) (V c main_arg3) (iblk0 V c 2 t) (V c main_v14) (iblk0 V c 3 t) (V c main_arg5)
    (iblk0 V c 4 t) (V c main_v15) (iblk0 V c 5 t) p ⟨t.val * 5000 + p.val, hrow⟩ q ?_ ?_ ?_ ?_ ?_ ?_
  · intro k
    have hk := k.isLt
    show V c main_arg0 (((cfg0.win 0).blk t).view.emb (ix2 p k)) = V c main_arg0 (ix2 ⟨t.val * 5000 + p.val, hrow⟩ k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    have hk := k.isLt
    show V c main_v13 (((cfg0.win 1).blk t).view.emb (ix2 p k)) = V c main_v13 (ix2 ⟨t.val * 5000 + p.val, hrow⟩ k)
    refine congrArg (V c main_v13) ?_
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  · refine funext fun (y : S128x128.Idx) => ?_
    show V c main_arg3 (((cfg0.win 2).blk t).view.emb y) = V c main_arg3 y
    refine congrArg (V c main_arg3) ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · refine funext fun (y : S1x128.Idx) => ?_
    show V c main_v14 (((cfg0.win 3).blk t).view.emb y) = V c main_v14 y
    refine congrArg (V c main_v14) ?_
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  · refine funext fun (y : S128x128.Idx) => ?_
    show V c main_arg5 (((cfg0.win 4).blk t).view.emb y) = V c main_arg5 y
    refine congrArg (V c main_arg5) ?_
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  · refine funext fun (y : S1x128.Idx) => ?_
    show V c main_v15 (((cfg0.win 5).blk t).view.emb y) = V c main_v15 y
    refine congrArg (V c main_v15) ?_
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v16).slice (win0_6.rect t)).set ↔ _
  rw [View.set_slice_whole, Rect.mem_set_unit]
  exact Iff.rfl

/-- Row `r` of the output array is in the block of point `r / 5000`, which is written back: the ten blocks fill the array. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨-, -, -, -, -, -, -, -, -, -, -, -, e60, e61⟩ := index_facts0 ⟨(i 0).val / 5000, hN⟩
  have e60' : win0_6.index ⟨(i 0).val / 5000, hN⟩ (0 : Fin 2) = (i 0).val / 5000 := e60
  refine ⟨⟨(i 0).val / 5000, hN⟩, flush0_6 _, ?_⟩
  rw [mem_blk0]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    omega

/-- THE OUTPUT ARRAY after the first call: the update of the whole arrays the call reads. -/
theorem final0 (c : Dev nD) : (dat0 V c).arrAt 6 cfg0.N = rows0 V c :=
  (dat0 V c).arrAt_eq_of_cover 6 (rows0 V c) (fun t _ => flushed0_eq V c t) cover0

/-! ## The second call -/

/-- The update of the arrays the second call reads, as the call finds them. -/
def rows1 (c : Dev nD) : S50000x128.Idx → Elt Ideal .f32 :=
  update (n := 50000) (K := 128) (H := 128) (N := 128) (V c main_v16) (V c main_v26) (V c main_arg7) (V c main_v27)
    (V c main_arg9) (V c main_v28)

/-- The printed index maps over the grid: the row windows sit at block `(t, 0)`, the weights and bias rows at block `(0, 0)`. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is its block of rows of the update of the whole arrays: the body's result is the update of the
    point's blocks, row `p` of the point's row blocks is row `5000·t + p` of the arrays, and the weight and bias blocks are the
    whole weights and bias rows. -/
theorem flushed1_eq (c : Dev nD) (t : Fin cfg1.N) :
    (dat1 V c).flushed 6 t = ((cfg1.win 6).blk t).view.read (Elt Ideal) (rows1 V c) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51, e60, e61⟩ := index_facts1 t
  have ht : t.val < 10 := lt_of_lt_of_eq t.isLt N_1
  refine funext fun (j : S5000x128.Idx) => ?_
  obtain ⟨p, q, rfl⟩ : ∃ (p : Fin 5000) (q : Fin 128), j = ix2 p q := ⟨j 0, j 1, eq_ix2 j⟩
  have hp := p.isLt
  have hq := q.isLt
  have hrow : t.val * 5000 + p.val < 50000 := by omega
  show k1_pay1 (F := Ideal) (iblk1 V c 0 t) (iblk1 V c 1 t) (iblk1 V c 2 t) (iblk1 V c 3 t) (iblk1 V c 4 t) (iblk1 V c 5 t) (ix2 p q)
    = rows1 V c (((cfg1.win 6).blk t).view.emb (ix2 p q))
  have hemb : ((cfg1.win 6).blk t).view.emb (ix2 p q)
      = (ix2 (n0 := 50000) (n1 := 128) ⟨t.val * 5000 + p.val, hrow⟩ q : S50000x128.Idx) := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  refine ((congrFun (BodyValue.pay1_eq (iblk1 V c 0 t) (iblk1 V c 1 t) (iblk1 V c 2 t) (iblk1 V c 3 t) (iblk1 V c 4 t)
    (iblk1 V c 5 t)) (ix2 p q)).trans ?_).trans (congrArg (rows1 V c) hemb.symm)
  unfold rows1
  refine update_entry (n := 50000) (M := 5000) (K := 128) (H := 128) (N := 128) (V c main_v16) (V c main_v26)
    (iblk1 V c 0 t) (iblk1 V c 1 t) (V c main_arg7) (iblk1 V c 2 t) (V c main_v27) (iblk1 V c 3 t) (V c main_arg9)
    (iblk1 V c 4 t) (V c main_v28) (iblk1 V c 5 t) p ⟨t.val * 5000 + p.val, hrow⟩ q ?_ ?_ ?_ ?_ ?_ ?_
  · intro k
    have hk := k.isLt
    show V c main_v16 (((cfg1.win 0).blk t).view.emb (ix2 p k)) = V c main_v16 (ix2 ⟨t.val * 5000 + p.val, hrow⟩ k)
    refine congrArg (V c main_v16) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    have hk := k.isLt
    show V c main_v26 (((cfg1.win 1).blk t).view.emb (ix2 p k)) = V c main_v26 (ix2 ⟨t.val * 5000 + p.val, hrow⟩ k)
    refine congrArg (V c main_v26) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  · refine funext fun (y : S128x128.Idx) => ?_
    show V c main_arg7 (((cfg1.win 2).blk t).view.emb y) = V c main_arg7 y
    refine congrArg (V c main_arg7) ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · refine funext fun (y : S1x128.Idx) => ?_
    show V c main_v27 (((cfg1.win 3).blk t).view.emb y) = V c main_v27 y
    refine congrArg (V c main_v27) ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  · refine funext fun (y : S128x128.Idx) => ?_
    show V c main_arg9 (((cfg1.win 4).blk t).view.emb y) = V c main_arg9 y
    refine congrArg (V c main_arg9) ?_
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  · refine funext fun (y : S1x128.Idx) => ?_
    show V c main_v28 (((cfg1.win 5).blk t).view.emb y) = V c main_v28 y
    refine congrArg (V c main_v28) ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega

/-- An index of the output array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v29).slice (win1_6.rect t)).set ↔ _
  rw [View.set_slice_whole, Rect.mem_set_unit]
  exact Iff.rfl

/-- Row `r` of the output array is in the block of point `r / 5000`, which is written back: the ten blocks fill the array. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  obtain ⟨-, -, -, -, -, -, -, -, -, -, -, -, e60, e61⟩ := index_facts1 ⟨(i 0).val / 5000, hN⟩
  have e60' : win1_6.index ⟨(i 0).val / 5000, hN⟩ (0 : Fin 2) = (i 0).val / 5000 := e60
  refine ⟨⟨(i 0).val / 5000, hN⟩, flush1_6 _, ?_⟩
  rw [mem_blk1]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    omega

/-- THE OUTPUT ARRAY after the second call: the update of the whole arrays the call reads. -/
theorem final1 (c : Dev nD) : (dat1 V c).arrAt 6 cfg1.N = rows1 V c :=
  (dat1 V c).arrAt_eq_of_cover 6 (rows1 V c) (fun t _ => flushed1_eq V c t) cover1

end Cert.KernelIdeal.RegionValue

end
-- ==== Proof.KernelHost.lean ====
/-
  The host operations around the node updates, as functions of the arrays they read.

  `neighbours h ei`: for the edge list `ei` (row 0 the source nodes, row 1 the destination nodes), the rows of `h` gathered at
  the sources — a negative source index counted from the end, as array indexing does — and added up into the rows named by the
  destinations, from the zero array: row `i` is the sum of `h`'s rows over the edges into `i`.
  `pooled h batch Wfc bfc`: the rows of `h` added up per graph (`batch` names each node's graph), divided by the graph's node
  count (at least 1), times `Wfc`, plus `bfc` on every row.
  `layer`: one node update of `h` with its neighbour sums, the bias vectors as rows. `net`: two layers, then the pooling.
  These are written with the operations exactly as the program prints them, so that the program's own run reads as `net` of its
  arguments; nothing is proved about gather, scatter or the pooling, which both programs apply alike.
-/
import proofs.«142959_j84482006712598_1_alg».proof.Proof.LibGinUpdate
import proofs.«142959_j84482006712598_1_alg».proof.Proof.Gen.KernelIdeal

noncomputable section

namespace Cert.KernelIdeal.HostChain

open Idealize.ShloMosaic Cert.KernelIdeal Cert.KernelIdeal.Gen Cert.Gin

/-- A vector of 128 entries has as many as a `1 × 128` row. -/
theorem bias_casts : S128.ShapeCasts S1x128 := shapeCasts_S128_S1x128

/-- Each node's sum of its in-neighbours' rows. -/
def neighbours (h : FVec Ideal S50000x128 .f32) (ei : IVec S2x800000 32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (shapeCast S800000 (extractStridedSlice S1x800000 ![1, 0] ei slices_S2x800000_S1x800000_1_0) shapeCasts_S1x800000_S800000))
    (Host.gather gather_S50000x128_S800000x1_S800000x128_1_0_n_n_0_1_1128 h
      (broadcastInDim S800000x1 ![0] bcast_S800000_S800000x1_0
        (select (cmpi .slt (shapeCast S800000 (extractStridedSlice S1x800000 ![0, 0] ei slices_S2x800000_S1x800000_0_0) shapeCasts_S1x800000_S800000) (broadcastInDim S800000 ![] bcast_S_S800000 (constantI S_ 32 0#32)))
          (addi (shapeCast S800000 (extractStridedSlice S1x800000 ![0, 0] ei slices_S2x800000_S1x800000_0_0) shapeCasts_S1x800000_S800000) (broadcastInDim S800000 ![] bcast_S_S800000 (constantI S_ 32 50000#32)))
          (shapeCast S800000 (extractStridedSlice S1x800000 ![0, 0] ei slices_S2x800000_S1x800000_0_0) shapeCasts_S1x800000_S800000))))

/-- The per-graph mean of the rows, through the last linear layer. -/
def pooled (h : FVec Ideal S50000x128 .f32) (batch : IVec S50000 32)
    (Wfc : FVec Ideal S128x2 .f32) (bfc : FVec Ideal S2 .f32) :
    FVec Ideal S512x2 .f32 :=
  addf (Host.dotGeneral (F := Ideal) dot_S512x128_S128x2_S512x2_1_0_0_1_n_n none
      (Host.divf (F := Ideal)
        (Host.scatterAdd (F := Ideal) scatter_S512x128_S50000x1_S50000x128_1_0_0_1
          (broadcastInDim S512x128 ![] bcast_S_S512x128 (constant (F := Ideal) S_ .f32 0x00000000#32))
          (broadcastInDim S50000x1 ![0] bcast_S50000_S50000x1_0 batch) h)
        (broadcastInDim S512x128 ![0, 1] bcast_S512x1_S512x128_0_1 (broadcastInDim S512x1 ![0] bcast_S512_S512x1_0
          (maximumf (Host.scatterAdd (F := Ideal) scatter_S512_S50000x1_S50000_n_0_0_1
              (broadcastInDim S512 ![] bcast_S_S512 (constant (F := Ideal) S_ .f32 0x00000000#32))
              (broadcastInDim S50000x1 ![0] bcast_S50000_S50000x1_0 batch)
              (broadcastInDim S50000 ![] bcast_S_S50000 (constant (F := Ideal) S_ .f32 0x3F800000#32)))
            (broadcastInDim S512 ![] bcast_S_S512 (constant (F := Ideal) S_ .f32 0x3F800000#32))))))
      Wfc)
    (broadcastInDim S512x2 ![0, 1] bcast_S1x2_S512x2_0_1 (broadcastInDim S1x2 ![1] bcast_S2_S1x2_1 bfc))

/-- One layer: the node update of `h` and its neighbour sums, the bias vectors cast to rows. -/
def layer (h : FVec Ideal S50000x128 .f32) (ei : IVec S2x800000 32)
    (Wa : FVec Ideal S128x128 .f32) (ba : FVec Ideal S128 .f32)
    (Wb : FVec Ideal S128x128 .f32) (bb : FVec Ideal S128 .f32) :
    FVec Ideal S50000x128 .f32 :=
  update (n := 50000) (K := 128) (H := 128) (N := 128) h (neighbours h ei) Wa (shapeCast S1x128 ba bias_casts) Wb
    (shapeCast S1x128 bb bias_casts)

/-- The whole network: two layers, then the pooling. -/
def net (x : FVec Ideal S50000x128 .f32) (ei : IVec S2x800000 32)
    (batch : IVec S50000 32)
    (W1a : FVec Ideal S128x128 .f32) (b1a : FVec Ideal S128 .f32)
    (W1b : FVec Ideal S128x128 .f32) (b1b : FVec Ideal S128 .f32)
    (W2a : FVec Ideal S128x128 .f32) (b2a : FVec Ideal S128 .f32)
    (W2b : FVec Ideal S128x128 .f32) (b2b : FVec Ideal S128 .f32)
    (Wfc : FVec Ideal S128x2 .f32) (bfc : FVec Ideal S2 .f32) :
    FVec Ideal S512x2 .f32 :=
  pooled (layer (layer x ei W1a b1a W1b b1b) ei W2a b2a W2b b2b) batch Wfc bfc

end Cert.KernelIdeal.HostChain

end
-- ==== Proof.KernelFold.lean ====
/-
  The kernel program's buffers at each boundary of its run, read back to the arguments.

  The run is five segments: host operations, the first call, host operations, the second call, host operations. At each boundary
  the buffers hold a function of the arguments, and following one buffer through the boundaries is a computation:
    • a stretch of host operations leaves each buffer it writes at the operation's value of what it reads, and every other as it
      was; the neighbour sums, the bias rows and the pooling come out as the functions `neighbours`, the cast of a bias vector to a
      row, and `pooled`;
    • a call leaves its output array at the node update of the arrays it reads (the whole-array statement of each call) and
      every other buffer as it was.
  So the first call's output is one layer of the arguments, the second call's is a layer of that, and the returned buffer is the
  pooling of the second: `net` of the thirteen arguments.
-/
import proofs.«142959_j84482006712598_1_alg».proof.Proof.KernelRegion
import proofs.«142959_j84482006712598_1_alg».proof.Proof.KernelHost
import Idealize.ShloMosaic.Lib.StableHlo.Run

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HostChain Cert.KernelIdeal.RegionValue Cert.Gin

variable (m : (ℓ : Loc nD τ sig) → Buf (Elt Ideal) ℓ) (ρ : Dev nD → PrngReg)

/-! ## After the first stretch (what the first call finds) -/

theorem W1_arg0 (c : Dev nD) : W1 m ρ c (Proc.devRef .tc main_arg0) = m ((c : Thread nD τ).loc main_arg0) := by
  show StableHlo.after hostOps0 (W0 m ρ c) (Proc.devRef .tc main_arg0) = _
  after_results
  all_goals rfl

theorem W1_arg2 (c : Dev nD) : W1 m ρ c (Proc.devRef .tc main_arg2) = m ((c : Thread nD τ).loc main_arg2) := by
  show StableHlo.after hostOps0 (W0 m ρ c) (Proc.devRef .tc main_arg2) = _
  after_results
  all_goals rfl

theorem W1_arg3 (c : Dev nD) : W1 m ρ c (Proc.devRef .tc main_arg3) = m ((c : Thread nD τ).loc main_arg3) := by
  show StableHlo.after hostOps0 (W0 m ρ c) (Proc.devRef .tc main_arg3) = _
  after_results
  all_goals rfl

theorem W1_arg5 (c : Dev nD) : W1 m ρ c (Proc.devRef .tc main_arg5) = m ((c : Thread nD τ).loc main_arg5) := by
  show StableHlo.after hostOps0 (W0 m ρ c) (Proc.devRef .tc main_arg5) = _
  after_results
  all_goals rfl

theorem W1_arg7 (c : Dev nD) : W1 m ρ c (Proc.devRef .tc main_arg7) = m ((c : Thread nD τ).loc main_arg7) := by
  show StableHlo.after hostOps0 (W0 m ρ c) (Proc.devRef .tc main_arg7) = _
  after_results
  all_goals rfl

theorem W1_arg8 (c : Dev nD) : W1 m ρ c (Proc.devRef .tc main_arg8) = m ((c : Thread nD τ).loc main_arg8) := by
  show StableHlo.after hostOps0 (W0 m ρ c) (Proc.devRef .tc main_arg8) = _
  after_results
  all_goals rfl

theorem W1_arg9 (c : Dev nD) : W1 m ρ c (Proc.devRef .tc main_arg9) = m ((c : Thread nD τ).loc main_arg9) := by
  show StableHlo.after hostOps0 (W0 m ρ c) (Proc.devRef .tc main_arg9) = _
  after_results
  all_goals rfl

theorem W1_arg10 (c : Dev nD) : W1 m ρ c (Proc.devRef .tc main_arg10) = m ((c : Thread nD τ).loc main_arg10) := by
  show StableHlo.after hostOps0 (W0 m ρ c) (Proc.devRef .tc main_arg10) = _
  after_results
  all_goals rfl

theorem W1_arg11 (c : Dev nD) : W1 m ρ c (Proc.devRef .tc main_arg11) = m ((c : Thread nD τ).loc main_arg11) := by
  show StableHlo.after hostOps0 (W0 m ρ c) (Proc.devRef .tc main_arg11) = _
  after_results
  all_goals rfl

theorem W1_arg12 (c : Dev nD) : W1 m ρ c (Proc.devRef .tc main_arg12) = m ((c : Thread nD τ).loc main_arg12) := by
  show StableHlo.after hostOps0 (W0 m ρ c) (Proc.devRef .tc main_arg12) = _
  after_results
  all_goals rfl

theorem W1_v1 (c : Dev nD) : W1 m ρ c (Proc.devRef .tc main_v1) = (shapeCast S800000 (extractStridedSlice S1x800000 ![0, 0] (m ((c : Thread nD τ).loc main_arg1)) slices_S2x800000_S1x800000_0_0) shapeCasts_S1x800000_S800000 : IVec S800000 32) := by
  show StableHlo.after hostOps0 (W0 m ρ c) (Proc.devRef .tc main_v1) = _
  after_results
  rfl

theorem W1_v3 (c : Dev nD) : W1 m ρ c (Proc.devRef .tc main_v3) = (shapeCast S800000 (extractStridedSlice S1x800000 ![1, 0] (m ((c : Thread nD τ).loc main_arg1)) slices_S2x800000_S1x800000_1_0) shapeCasts_S1x800000_S800000 : IVec S800000 32) := by
  show StableHlo.after hostOps0 (W0 m ρ c) (Proc.devRef .tc main_v3) = _
  after_results
  rfl

theorem W1_v13 (c : Dev nD) : W1 m ρ c (Proc.devRef .tc main_v13) = neighbours (m ((c : Thread nD τ).loc main_arg0)) (m ((c : Thread nD τ).loc main_arg1)) := by
  show StableHlo.after hostOps0 (W0 m ρ c) (Proc.devRef .tc main_v13) = _
  after_results
  rfl

theorem W1_v14 (c : Dev nD) : W1 m ρ c (Proc.devRef .tc main_v14) = (shapeCast S1x128 (m ((c : Thread nD τ).loc main_arg4) : FVec Ideal S128 .f32) bias_casts : FVec Ideal S1x128 .f32) := by
  show StableHlo.after hostOps0 (W0 m ρ c) (Proc.devRef .tc main_v14) = _
  after_results
  rfl

theorem W1_v15 (c : Dev nD) : W1 m ρ c (Proc.devRef .tc main_v15) = (shapeCast S1x128 (m ((c : Thread nD τ).loc main_arg6) : FVec Ideal S128 .f32) bias_casts : FVec Ideal S1x128 .f32) := by
  show StableHlo.after hostOps0 (W0 m ρ c) (Proc.devRef .tc main_v15) = _
  after_results
  rfl

/-- The first call reads the features, their neighbour sums, the first layer's weights and its bias vectors as rows: its
    output is the first layer. -/
theorem entry0 (c : Dev nD) : rows0 (V1 m ρ) c = layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show update (n := 50000) (K := 128) (H := 128) (N := 128) (W1 m ρ c (Proc.devRef .tc main_arg0))
    (W1 m ρ c (Proc.devRef .tc main_v13)) (W1 m ρ c (Proc.devRef .tc main_arg3)) (W1 m ρ c (Proc.devRef .tc main_v14))
    (W1 m ρ c (Proc.devRef .tc main_arg5)) (W1 m ρ c (Proc.devRef .tc main_v15)) = _
  rw [W1_arg0 m ρ c, W1_v13 m ρ c, W1_arg3 m ρ c, W1_v14 m ρ c, W1_arg5 m ρ c, W1_v15 m ρ c]
  rfl

/-! ## After the first call -/

theorem W2_v16 (c : Dev nD) : W2 m ρ c (Proc.devRef .tc main_v16) = layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W2_arr m ρ c 6).trans ((final0 (V1 m ρ) c).trans (entry0 m ρ c))

theorem W2_v1 (c : Dev nD) : W2 m ρ c (Proc.devRef .tc main_v1) = (shapeCast S800000 (extractStridedSlice S1x800000 ![0, 0] (m ((c : Thread nD τ).loc main_arg1)) slices_S2x800000_S1x800000_0_0) shapeCasts_S1x800000_S800000 : IVec S800000 32) :=
  (W2_of_ne m ρ c main_v1 (by decide)).trans (W1_v1 m ρ c)

theorem W2_v3 (c : Dev nD) : W2 m ρ c (Proc.devRef .tc main_v3) = (shapeCast S800000 (extractStridedSlice S1x800000 ![1, 0] (m ((c : Thread nD τ).loc main_arg1)) slices_S2x800000_S1x800000_1_0) shapeCasts_S1x800000_S800000 : IVec S800000 32) :=
  (W2_of_ne m ρ c main_v3 (by decide)).trans (W1_v3 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

/-! ## After the second stretch (what the second call finds) -/

theorem W3_v16 (c : Dev nD) : W3 m ρ c (Proc.devRef .tc main_v16) = layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v16) = _
  after_results
  exact W2_v16 m ρ c

set_option maxHeartbeats 2000000 in
theorem W3_v26 (c : Dev nD) : W3 m ρ c (Proc.devRef .tc main_v26) = neighbours (layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) := by
  show StableHlo.after hostOps1 (W2 m ρ c) (Proc.devRef .tc main_v26) = _
  after_results_simp
  rw [W2_v16 m ρ c, W2_v1 m ρ c, W2_v3 m ρ c]
  rfl

theorem W3_v27 (c : Dev nD) : W3 m ρ c (Proc.devRef .tc main_v27) = (shapeCast S1x128 (m ((c : Thread nD τ).loc main_arg8) : FVec Ideal S128 .f32) bias_casts : FVec Ideal S1x128 .f32) := by
  show StableHlo.after hostOps1 (W2 m ρ c) (Proc.devRef .tc main_v27) = _
  after_results
  rw [W2_arg8 m ρ c]
  rfl

theorem W3_v28 (c : Dev nD) : W3 m ρ c (Proc.devRef .tc main_v28) = (shapeCast S1x128 (m ((c : Thread nD τ).loc main_arg10) : FVec Ideal S128 .f32) bias_casts : FVec Ideal S1x128 .f32) := by
  show StableHlo.after hostOps1 (W2 m ρ c) (Proc.devRef .tc main_v28) = _
  after_results
  rw [W2_arg10 m ρ c]
  rfl

theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c

theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c

theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c

theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c

theorem W3_arg12 (c : Dev nD) : W3 m ρ c (Proc.devRef .tc main_arg12) = m ((c : Thread nD τ).loc main_arg12) := by
  show StableHlo.after hostOps1 (W2 m ρ c) (Proc.devRef .tc main_arg12) = _
  after_results
  exact W2_arg12 m ρ c

/-- The second call reads the first layer, its neighbour sums, the second layer's weights and its bias vectors as rows: its
    output is the second layer. -/
theorem entry1 (c : Dev nD) : rows1 (V3 m ρ) c = layer (layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) := by
  show update (n := 50000) (K := 128) (H := 128) (N := 128) (W3 m ρ c (Proc.devRef .tc main_v16))
    (W3 m ρ c (Proc.devRef .tc main_v26)) (W3 m ρ c (Proc.devRef .tc main_arg7)) (W3 m ρ c (Proc.devRef .tc main_v27))
    (W3 m ρ c (Proc.devRef .tc main_arg9)) (W3 m ρ c (Proc.devRef .tc main_v28)) = _
  rw [W3_v16 m ρ c, W3_v26 m ρ c, W3_arg7 m ρ c, W3_v27 m ρ c, W3_arg9 m ρ c, W3_v28 m ρ c]
  rfl

/-! ## After the second call, and the returned buffer -/

theorem W4_v29 (c : Dev nD) : W4 m ρ c (Proc.devRef .tc main_v29) = layer (layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) :=
  (W4_arr m ρ c 6).trans ((final1 (V3 m ρ) c).trans (entry1 m ρ c))

theorem W4_arg2 (c : Dev nD) : W4 m ρ c (Proc.devRef .tc main_arg2) = m ((c : Thread nD τ).loc main_arg2) :=
  (W4_of_ne m ρ c main_arg2 (by decide)).trans (W3_arg2 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg12 (c : Dev nD) : W4 m ρ c (Proc.devRef .tc main_arg12) = m ((c : Thread nD τ).loc main_arg12) :=
  (W4_of_ne m ρ c main_arg12 (by decide)).trans (W3_arg12 m ρ c)

set_option maxHeartbeats 2000000 in
/-- THE RETURNED BUFFER at the end of the run is the network of the arguments. -/
theorem W5_v45 (c : Dev nD) : W5 m ρ c (Proc.devRef .tc main_v45) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v45) = _
  after_results_simp
  rw [W4_v29 m ρ c, W4_arg2 m ρ c, W4_arg11 m ρ c, W4_arg12 m ρ c]
  rfl

end Cert.KernelIdeal.RunValue

end
-- ==== Proof.KernelRun.lean ====
/-
  The kernel program's run, with the returned buffer named.

  Every weakly fair execution of the program from a memory with zero counters terminates without a fault; at the end every
  buffer that is not scoped to a call holds the last boundary's contents, so the returned buffer holds the network of the
  arguments (the boundaries read back) and the arguments are as launched. The run is the segments' — host operations, a call,
  host operations, a call, host operations — over the thread state "every unscoped buffer at the boundary's contents, the
  generator register at some state, nothing owed".
-/
import proofs.«142959_j84482006712598_1_alg».proof.Proof.KernelFold

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HostChain Cert.Gin

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: it terminates, nothing faults, the returned buffer is the network of the arguments and the arguments are
    unchanged. -/
theorem run : θ_run defs (onTc (τ := τ) (main (F := Ideal))) ⟨m, fun _ => 0, ρ⟩ (fun r => ∀ c : Dev nD,
      r.2.mem ((c.tc : Thread nD τ).loc main_v45) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v45 (by decide))).trans (W5_v45 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.RunValue

end
-- ==== Proof.ReferenceHost.lean ====
/-
  The host operations around the node updates, as functions of the arrays they read.

  `neighbours h ei`: for the edge list `ei` (row 0 the source nodes, row 1 the destination nodes), the rows of `h` gathered at
  the sources — a negative source index counted from the end, as array indexing does — and added up into the rows named by the
  destinations, from the zero array: row `i` is the sum of `h`'s rows over the edges into `i`.
  `pooled h batch Wfc bfc`: the rows of `h` added up per graph (`batch` names each node's graph), divided by the graph's node
  count (at least 1), times `Wfc`, plus `bfc` on every row.
  `layer`: one node update of `h` with its neighbour sums, the bias vectors as rows. `net`: two layers, then the pooling.
  These are written with the operations exactly as the program prints them, so that the program's own run reads as `net` of its
  arguments; nothing is proved about gather, scatter or the pooling, which both programs apply alike.
-/
import proofs.«142959_j84482006712598_1_alg».proof.Proof.LibGinUpdate
import proofs.«142959_j84482006712598_1_alg».proof.Proof.Gen.ReferenceIdeal

noncomputable section

namespace Cert.ReferenceIdeal.HostChain

open Idealize.ShloMosaic Cert.ReferenceIdeal Cert.ReferenceIdeal.Gen Cert.Gin

/-- A vector of 128 entries has as many as a `1 × 128` row. -/
theorem bias_casts : S128.ShapeCasts S1x128 := by decide

/-- Each node's sum of its in-neighbours' rows. -/
def neighbours (h : FVec Ideal S50000x128 .f32) (ei : IVec S2x800000 32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (shapeCast S800000 (extractStridedSlice S1x800000 ![1, 0] ei slices_S2x800000_S1x800000_1_0) shapeCasts_S1x800000_S800000))
    (Host.gather gather_S50000x128_S800000x1_S800000x128_1_0_n_n_0_1_1128 h
      (broadcastInDim S800000x1 ![0] bcast_S800000_S800000x1_0
        (select (cmpi .slt (shapeCast S800000 (extractStridedSlice S1x800000 ![0, 0] ei slices_S2x800000_S1x800000_0_0) shapeCasts_S1x800000_S800000) (broadcastInDim S800000 ![] bcast_S_S800000 (constantI S_ 32 0#32)))
          (addi (shapeCast S800000 (extractStridedSlice S1x800000 ![0, 0] ei slices_S2x800000_S1x800000_0_0) shapeCasts_S1x800000_S800000) (broadcastInDim S800000 ![] bcast_S_S800000 (constantI S_ 32 50000#32)))
          (shapeCast S800000 (extractStridedSlice S1x800000 ![0, 0] ei slices_S2x800000_S1x800000_0_0) shapeCasts_S1x800000_S800000))))

/-- The per-graph mean of the rows, through the last linear layer. -/
def pooled (h : FVec Ideal S50000x128 .f32) (batch : IVec S50000 32)
    (Wfc : FVec Ideal S128x2 .f32) (bfc : FVec Ideal S2 .f32) :
    FVec Ideal S512x2 .f32 :=
  addf (Host.dotGeneral (F := Ideal) dot_S512x128_S128x2_S512x2_1_0_0_1_n_n none
      (Host.divf (F := Ideal)
        (Host.scatterAdd (F := Ideal) scatter_S512x128_S50000x1_S50000x128_1_0_0_1
          (broadcastInDim S512x128 ![] bcast_S_S512x128 (constant (F := Ideal) S_ .f32 0x00000000#32))
          (broadcastInDim S50000x1 ![0] bcast_S50000_S50000x1_0 batch) h)
        (broadcastInDim S512x128 ![0, 1] bcast_S512x1_S512x128_0_1 (broadcastInDim S512x1 ![0] bcast_S512_S512x1_0
          (maximumf (Host.scatterAdd (F := Ideal) scatter_S512_S50000x1_S50000_n_0_0_1
              (broadcastInDim S512 ![] bcast_S_S512 (constant (F := Ideal) S_ .f32 0x00000000#32))
              (broadcastInDim S50000x1 ![0] bcast_S50000_S50000x1_0 batch)
              (broadcastInDim S50000 ![] bcast_S_S50000 (constant (F := Ideal) S_ .f32 0x3F800000#32)))
            (broadcastInDim S512 ![] bcast_S_S512 (constant (F := Ideal) S_ .f32 0x3F800000#32))))))
      Wfc)
    (broadcastInDim S512x2 ![0, 1] bcast_S1x2_S512x2_0_1 (broadcastInDim S1x2 ![1] bcast_S2_S1x2_1 bfc))

/-- One layer: the node update of `h` and its neighbour sums, the bias vectors cast to rows. -/
def layer (h : FVec Ideal S50000x128 .f32) (ei : IVec S2x800000 32)
    (Wa : FVec Ideal S128x128 .f32) (ba : FVec Ideal S128 .f32)
    (Wb : FVec Ideal S128x128 .f32) (bb : FVec Ideal S128 .f32) :
    FVec Ideal S50000x128 .f32 :=
  update (n := 50000) (K := 128) (H := 128) (N := 128) h (neighbours h ei) Wa (shapeCast S1x128 ba bias_casts) Wb
    (shapeCast S1x128 bb bias_casts)

/-- The whole network: two layers, then the pooling. -/
def net (x : FVec Ideal S50000x128 .f32) (ei : IVec S2x800000 32)
    (batch : IVec S50000 32)
    (W1a : FVec Ideal S128x128 .f32) (b1a : FVec Ideal S128 .f32)
    (W1b : FVec Ideal S128x128 .f32) (b1b : FVec Ideal S128 .f32)
    (W2a : FVec Ideal S128x128 .f32) (b2a : FVec Ideal S128 .f32)
    (W2b : FVec Ideal S128x128 .f32) (b2b : FVec Ideal S128 .f32)
    (Wfc : FVec Ideal S128x2 .f32) (bfc : FVec Ideal S2 .f32) :
    FVec Ideal S512x2 .f32 :=
  pooled (layer (layer x ei W1a b1a W1b b1b) ei W2a b2a W2b b2b) batch Wfc bfc

end Cert.ReferenceIdeal.HostChain

end
-- ==== Proof.ReferenceValue.lean ====
/-
  The reference's run, read as the network of its arguments.

  The reference spells each layer on the host: a product with the first weights, the first bias vector broadcast to a row and over
  the rows and added, the maximum with a broadcast zero, and the same again with the second weights and bias. That is the node
  update at the bias vectors cast to rows; with both layers read so, the run's result term is `net` of the thirteen arguments.
-/
import proofs.«142959_j84482006712598_1_alg».proof.Proof.ReferenceHost
import proofs.«142959_j84482006712598_1_alg».proof.Proof.Gen.ReferenceIdeal.Run

noncomputable section

namespace Cert.ReferenceIdeal.RefValue

open Idealize.ShloMosaic Idealize.ShloMosaic.TcCoe Idealize.SL.Sem
open Cert.ReferenceIdeal Cert.ReferenceIdeal.Gen Cert.ReferenceIdeal.Value Cert.ReferenceIdeal.HostChain Cert.Gin

/-- The reference's layer products contract axis 1 of the left operand with axis 0 of the right one. -/
theorem dot_plain : dot_S50000x128_S128x128_S50000x128_1_0_0_1_n_n = DotDims.plain 50000 128 128 := rfl

set_option maxHeartbeats 400000 in
/-- The result term of the reference's run is the network of the arguments. -/
theorem result_eq (m : (ℓ : Loc nD τ sig) → Buf (Elt Ideal) ℓ) (c : Dev nD) :
    res_main_v61 (F := Ideal) m c = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold res_main_v61
  rw [host_update _ dot_plain _ dot_plain bcast_S128_S1x128_1 bcast_S1x128_S50000x128_0_1 bcast_S_S50000x128 bias_casts
    bcast_S128_S1x128_1 bcast_S1x128_S50000x128_0_1 bcast_S_S50000x128 bias_casts]
  rw [host_update _ dot_plain _ dot_plain bcast_S128_S1x128_1 bcast_S1x128_S50000x128_0_1 bcast_S_S50000x128 bias_casts
    bcast_S128_S1x128_1 bcast_S1x128_S50000x128_0_1 bcast_S_S50000x128 bias_casts]
  rfl

end Cert.ReferenceIdeal.RefValue

end
-- ==== Proof.NetBridge.lean ====
/-
  The two programs' networks are one function.

  Each program prints the host operations it shares with the other over its own records of dimension numbers and its own side
  conditions. The records have the same fields (the same lists of axes) and the side conditions are propositions, so the neighbour
  sums, the pooling, a layer and the whole network of one program are those of the other.
-/
import proofs.«142959_j84482006712598_1_alg».proof.Proof.KernelHost
import proofs.«142959_j84482006712598_1_alg».proof.Proof.ReferenceHost

noncomputable section

namespace Cert.Bridge

open Idealize.ShloMosaic

set_option maxHeartbeats 400000 in
/-- The kernel program's network of the arguments is the reference's. -/
theorem net_eq (x : FVec Ideal Cert.KernelIdeal.S50000x128 .f32) (ei : IVec Cert.KernelIdeal.S2x800000 32) (batch : IVec Cert.KernelIdeal.S50000 32)
    (W1a : FVec Ideal Cert.KernelIdeal.S128x128 .f32) (b1a : FVec Ideal Cert.KernelIdeal.S128 .f32) (W1b : FVec Ideal Cert.KernelIdeal.S128x128 .f32)
    (b1b : FVec Ideal Cert.KernelIdeal.S128 .f32) (W2a : FVec Ideal Cert.KernelIdeal.S128x128 .f32) (b2a : FVec Ideal Cert.KernelIdeal.S128 .f32)
    (W2b : FVec Ideal Cert.KernelIdeal.S128x128 .f32) (b2b : FVec Ideal Cert.KernelIdeal.S128 .f32) (Wfc : FVec Ideal Cert.KernelIdeal.S128x2 .f32)
    (bfc : FVec Ideal Cert.KernelIdeal.S2 .f32) :
    Cert.KernelIdeal.HostChain.net x ei batch W1a b1a W1b b1b W2a b2a W2b b2b Wfc bfc
      = Cert.ReferenceIdeal.HostChain.net x ei batch W1a b1a W1b b1b W2a b2a W2b b2b Wfc bfc := rfl

end Cert.Bridge

end
-- ==== Proof.lean ====
/-
  A two-layer graph-isomorphism network with mean pooling: a kernel program against its plain reference.

  Both programs take node features `x : 50000 × 128`, an edge list, each node's graph number, two layers' weights and biases and a
  last linear layer. Both form each node's sum of its in-neighbours' rows on the host (a gather and a scatter-add), update the
  nodes by `relu (relu ((h + sums) · Wa + ba) · Wb + bb)`, do that twice, take each graph's mean row and apply the last linear
  layer. The reference spells the update on the host over all 50000 rows at once; the kernel program runs it in a pallas_call over
  ten blocks of 5000 rows, with the products' operands rounded to bf16.

  Over the extended reals the rounding is the identity, and a row of the update depends on the same row of `h` and of the sums
  only, so the ten blocks of rows of the update are the update of the whole arrays: each call leaves in its output array exactly
  what the reference's host layer computes. Everything else is the same operations applied to the same values, so both programs
  return the same function `net` of their arguments — with no use of distributivity, cancellation or any law that fails at
  infinities, and so with no use of the precondition.

  The frames of the two kernel programs are the generated ones; the reference's frame is its generated run with the result
  dropped; the idealization rewrote no operation, so `preserves` is `True`.
-/
import proofs.«142959_j84482006712598_1_alg».proof.Defs
import proofs.«142959_j84482006712598_1_alg».proof.Proof.Gen.Kernel
import proofs.«142959_j84482006712598_1_alg».proof.Proof.Gen.Kernel.Skeleton
import proofs.«142959_j84482006712598_1_alg».proof.Proof.Gen.Kernel.Launch
import proofs.«142959_j84482006712598_1_alg».proof.Proof.Gen.Kernel.Points
import proofs.«142959_j84482006712598_1_alg».proof.Proof.Gen.Kernel.Frame
import proofs.«142959_j84482006712598_1_alg».proof.Proof.Gen.KernelIdeal
import proofs.«142959_j84482006712598_1_alg».proof.Proof.Gen.KernelIdeal.Skeleton
import proofs.«142959_j84482006712598_1_alg».proof.Proof.Gen.KernelIdeal.Launch
import proofs.«142959_j84482006712598_1_alg».proof.Proof.Gen.KernelIdeal.Points
import proofs.«142959_j84482006712598_1_alg».proof.Proof.Gen.KernelIdeal.Frame
import proofs.«142959_j84482006712598_1_alg».proof.Proof.Gen.ReferenceIdeal
import proofs.«142959_j84482006712598_1_alg».proof.Proof.Gen.ReferenceIdeal.Run
import proofs.«142959_j84482006712598_1_alg».proof.Proof.Gen.Pre_finite_inputs
import proofs.«142959_j84482006712598_1_alg».proof.Proof.KernelRun
import proofs.«142959_j84482006712598_1_alg».proof.Proof.ReferenceValue
import proofs.«142959_j84482006712598_1_alg».proof.Proof.NetBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run terminates with its arguments unchanged: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their returned buffer: the
    kernel program by its run read back through its two calls, the reference by its run's result term with both layers read as
    node updates, and the two networks are one function. -/
theorem algebraic : Cert.algebraic_KernelIdeal_ReferenceIdeal := by
  intro m ρ m' ρ' _ hagree
  refine ⟨fun c => Cert.KernelIdeal.HostChain.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.RefValue.result_eq m' c, h0, h1, h2, h3, h4, h5, h6, h7, h8, h9, h10, h11, h12]
  exact (Cert.Bridge.net_eq _ _ _ _ _ _ _ _ _ _ _ _ _).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
